-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x1 : Shape := ⟨2, ![16384, 1]⟩
abbrev S128x256 : Shape := ⟨2, ![128, 256]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128x256 .f32) (main_arg8 : FVec F S128 .f32) (main_arg9 : FVec F S128x256 .f32) (main_arg10 : FVec F S128 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128x256 .f32) (main_arg6 : FVec F S128 .f32) (main_arg7 : FVec F S128x256 .f32) (main_arg8 : FVec F S128 .f32) (main_arg9 : FVec F S128x256 .f32) (main_arg10 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x128 .f32) (main_arg1 : FVec F S16384x128 .f32) (main_arg2 : FVec F S16384x1 .f32) (main_arg3 : FVec F S128x256 .f32) (main_arg4 : FVec F S128 .f32) (main_arg5 : FVec F S128x256 .f32) (main_arg6 : FVec F S128 .f32) (main_arg7 : FVec F S128x256 .f32) (main_arg8 : FVec F S128 .f32) (main_arg9 : FVec F S128x256 .f32) (main_arg10 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_v13 main_v16
-- ==== Kernel.lean ====
abbrev S16384x128 : Shape := ⟨2, ![16384, 128]⟩
abbrev S16384x1 : Shape := ⟨2, ![16384, 1]⟩
abbrev S128x256 : Shape := ⟨2, ![128, 256]⟩
abbrev S128 : Shape := ⟨1, ![128]⟩
abbrev S4096x128 : Shape := ⟨2, ![4096, 128]⟩
abbrev S4096x1 : Shape := ⟨2, ![4096, 1]⟩
abbrev S128x128 : Shape := ⟨2, ![128, 128]⟩
abbrev S1x128 : Shape := ⟨2, ![1, 128]⟩

abbrev nBuf : Space → Nat
  | .hbm => 13
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x1, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S16384x128, .f32⟩
  | .hbm, ⟨12, _⟩ => ⟨S16384x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x1, .f32⟩
  | .local _ .vmem, ⟨5, _⟩ => ⟨S4096x1, .f32⟩
  | .local _ .vmem, ⟨6, _⟩ => ⟨S128x256, .f32⟩
  | .local _ .vmem, ⟨7, _⟩ => ⟨S128, .f32⟩
  | .local _ .vmem, ⟨8, _⟩ => ⟨S128x256, .f32⟩
  | .local _ .vmem, ⟨9, _⟩ => ⟨S128, .f32⟩
  | .local _ .vmem, ⟨10, _⟩ => ⟨S128x256, .f32⟩
  | .local _ .vmem, ⟨11, _⟩ => ⟨S128, .f32⟩
  | .local _ .vmem, ⟨12, _⟩ => ⟨S128x256, .f32⟩
  | .local _ .vmem, ⟨13, _⟩ => ⟨S128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  slices_S128x256_o0_0_S128x128 : S128x256.Slices ![0, 0] S128x128
  slices_S128x256_o0_128_S128x128 : S128x256.Slices ![0, 128] S128x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S4096x1_S4096x1_0_0 : ∀ a, (![0, 0] : Fin 2 → Nat) a + S4096x1.size a ≤ S4096x1.size a
  h_S4096x1 : 0 < S4096x1.numel
  broadcasts_S4096x1_S4096x128 : S4096x1.Broadcasts S4096x128
  dot_S4096x128_S128x128_S4096x128_1_1_0_0_n_n_wf : DotDims.WF S4096x128 S128x128 S4096x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .f32 = 32 ∨ (Rect.block (s := S16384x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S16384x128.size a
  hwx0_1 : ∀ i : grid0.Coords, EltTy.bits .f32 = 32 ∨ (Rect.block (s := S16384x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S16384x1.size a
  hwx0_2 : ∀ i : grid0.Coords, EltTy.bits .f32 = 32 ∨ (Rect.block (s := S16384x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S128x256.size a
  hwx0_9 : ∀ i : grid0.Coords, EltTy.bits .f32 = 32 ∨ (Rect.block (s := S128x256) S128x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x128.size a ≤ S16384x128.size a
  hwx0_11 : ∀ i : grid0.Coords, EltTy.bits .f32 = 32 ∨ (Rect.block (s := S16384x128) S4096x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x128.size a ≤ S16384x128.size a
  hwx0_12 : ∀ i : grid0.Coords, EltTy.bits .f32 = 32 ∨ (Rect.block (s := S16384x128) S4096x128.size (cc0_transform_12 i) (hinb0_12 i)).WholeWords (EltTy.packing .f32)

variable [Facts₀]

def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S4096x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S4096x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x1 : Shape := ⟨2, ![16384, 1]⟩
abbrev S128x256 : Shape := ⟨2, ![128, 256]⟩
abbrev S128 : Shape := ⟨1, ![128]⟩
abbrev S16384x256 : Shape := ⟨2, ![16384, 256]⟩
abbrev S256x128 : Shape := ⟨2, ![256, 128]⟩
abbrev S1x128 : Shape := ⟨2, ![1, 128]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x1, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S16384x256, .f32⟩
  | .hbm, ⟨12, _⟩ => ⟨S256x128, .f32⟩
  | .hbm, ⟨13, _⟩ => ⟨S16384x128, .f32⟩
  | .hbm, ⟨14, _⟩ => ⟨S1x128, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S256x128, .f32⟩
  | .hbm, ⟨19, _⟩ => ⟨S16384x128, .f32⟩
  | .hbm, ⟨20, _⟩ => ⟨S1x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S256x128, .f32⟩
  | .hbm, ⟨25, _⟩ => ⟨S16384x128, .f32⟩
  | .hbm, ⟨26, _⟩ => ⟨S1x128, .f32⟩
  | .hbm, ⟨27, _⟩ => ⟨S16384x128, .f32⟩
  | .hbm, ⟨28, _⟩ => ⟨S16384x128, .f32⟩
  | .hbm, ⟨29, _⟩ => ⟨S256x128, .f32⟩
  | .hbm, ⟨30, _⟩ => ⟨S16384x128, .f32⟩
  | .hbm, ⟨31, _⟩ => ⟨S1x128, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S_, .f32⟩
  | .hbm, ⟨40, _⟩ => ⟨S16384x128, .f32⟩
  | .hbm, ⟨41, _⟩ => ⟨S16384x128, .f32⟩
  | .hbm, ⟨42, _⟩ => ⟨S_, .f32⟩
  | .hbm, ⟨43, _⟩ => ⟨S16384x128, .f32⟩
  | .hbm, ⟨44, _⟩ => ⟨S16384x128, .f32⟩
  | .hbm, ⟨45, _⟩ => ⟨S_, .f32⟩
  | .hbm, ⟨46, _⟩ => ⟨S16384x128, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_cst_0 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  concatenates_S16384x128_S16384x128_S16384x256_d1 : Shape.Concatenates [S16384x128, S16384x128] S16384x256 1
  transposes_S128x256_S256x128_1_0 : S128x256.Transposes [1, 0] S256x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S16384x1_S16384x128_0_1 : S16384x1.BroadcastsInDim S16384x128 (![0, 1] : Fin 2 → Fin S16384x128.rank)
  bcast_S_S16384x128 : S_.BroadcastsInDim S16384x128 (![] : Fin 0 → Fin S16384x128.rank)
  dot_S16384x256_S256x128_S16384x128_1_0_0_1_n_n_wf : DotDims.WF S16384x256 S256x128 S16384x128 [1] [0] [0] [1] [] []

variable [Facts₀]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.LibDotNT.lean ====
/-
  A matrix product against a transposed right operand, read at an entry.  For dimension numbers that contract the
  second axis of BOTH operands (no batch axes), the product of an M × K array by an N × K array at entry (r, c) is the
  sum over k < K of left(r, k) · right(c, k) — the inner product of the left operand's row r with the right operand's
  row c — for the kernel's product into a zero accumulator and for the host's product alike.  The contraction index of
  the dimension numbers is a one-coordinate tuple; the sum is re-indexed by that coordinate.
-/
import Idealize.ShloMosaic.PureOps.Ideal.Laws
import Idealize.ShloMosaic.Lib.ValueIdx

noncomputable section

namespace Cert.LibDotNT

open Idealize.ShloMosaic Idealize.ShloMosaic.ValueIdx

variable {M K N : Nat} {φ₁ φ₂ : FTy}
  (D : DotDims (⟨2, ![M, K]⟩ : Shape) (⟨2, ![N, K]⟩ : Shape) (⟨2, ![M, N]⟩ : Shape))
  (hrank : D.contr.rank = 1) (hsize : D.contr.size ⟨0, by omega⟩ = K)
  (hlc : D.lhsContracting = [1]) (hrc : D.rhsContracting = [1])
  (hL0 : ∀ j k, (D.lhsIdx j k 0).val = (j 0).val) (hR0 : ∀ j k, (D.rhsIdx j k 0).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR0 in
/-- The right operand's index there is (c, k): its row is the output's column. -/
theorem rhsIdx_eq (r : Fin M) (c : Fin N) (k : Fin K) :
    D.rhsIdx (ix2 r c) ((contrEquiv1 D K hrank hsize).symm k) = ix2 c k := by
  funext a; apply Fin.ext
  match a with
  | ⟨0, _⟩ => exact hR0 _ _
  | ⟨1, _⟩ => exact (D.rhsIdx_val_of_single hrc _ _).trans (contrEquiv1_symm_val D K hrank hsize k)

include hrank hsize hlc hrc hL0 hR0 in
/-- The sum over the contraction index is the sum over k < K of the two operands at (r, k) and (c, k). -/
theorem sum_contr (lhs : FVec Ideal (⟨2, ![M, K]⟩ : Shape) φ₁) (rhs : FVec Ideal (⟨2, ![N, K]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 c k) := by
  rw [← Equiv.sum_comp (contrEquiv1 D K hrank hsize).symm]
  refine Finset.sum_congr rfl fun k _ => ?_
  rw [lhsIdx_eq D hrank hsize hlc hL0 r c k, rhsIdx_eq D hrank hsize hrc hR0 r c k]

include hrank hsize hlc hrc hL0 hR0 in
/-- The kernel's product into the zero accumulator, at an entry. -/
theorem matmul_zero_apply (prec : Option ContractPrecision) (lhs : FVec Ideal (⟨2, ![M, K]⟩ : Shape) φ₁)
    (rhs : FVec Ideal (⟨2, ![N, K]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 c k) :=
  (Ideal.matmul_constant_zero_apply D prec lhs rhs (ix2 r c)).trans (sum_contr D hrank hsize hlc hrc hL0 hR0 lhs rhs r c)

include hrank hsize hlc hrc hL0 hR0 in
/-- The host's product, at an entry, whatever its schedule. -/
theorem dotGeneral_apply (prec : Option ContractPrecision) (sched : HostSchedule) (lhs : FVec Ideal (⟨2, ![M, K]⟩ : Shape) φ₁)
    (rhs : FVec Ideal (⟨2, ![N, K]⟩ : Shape) φ₂) (r : Fin M) (c : Fin N) :
    FloatOps.dotGeneral D prec sched lhs rhs (ix2 r c) = ∑ k : Fin K, lhs (ix2 r k) * rhs (ix2 c k) :=
  (Ideal.dotGeneral_apply D prec sched lhs rhs (ix2 r c)).trans (sum_contr D hrank hsize hlc hrc hL0 hR0 lhs rhs r c)

end Cert.LibDotNT

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.CellSpec.lean ====
/-
  What the cell computes, as one function of its eleven argument arrays, entry by entry.

  The activations are x, h : [R, 128] (input and previous state) and a per-row time scale s : [R, 1]; each of the four
  dense layers has a weight w : [128, 256], whose row c holds unit c's coefficients for the concatenated activation
  [x | h] (columns 0..127 for x, columns 128..255 for h), and a bias b : [128].  At row r and unit c a layer gives
      lin r c = sum_k x(r, k) · w(c, k)  +  sum_k h(r, k) · w(c, 128 + k)  +  b(c),
  and the new state is
      tanh (lin1) + logistic (lin_a · s(r) + lin_b) · (tanh (lin2) - tanh (lin1)).
  An entry reads its activations only through row r, so a block of rows of the result is the same function of the
  matching block of rows of the activations: that is stated here as a congruence.
-/
import Idealize.ShloMosaic.PureOps.Ideal
import Idealize.ShloMosaic.Lib.ValueIdx

noncomputable section

namespace Cert.Cfc

open Idealize.ShloMosaic Idealize.ShloMosaic.ValueIdx

/-- A matrix of R rows and 128 columns, a column of R time scales, a weight matrix and a bias, as extended reals. -/
abbrev Act (R : Nat) : Type := (⟨2, ![R, 128]⟩ : Shape).Idx → EReal
abbrev Col (R : Nat) : Type := (⟨2, ![R, 1]⟩ : Shape).Idx → EReal
abbrev Wgt : Type := (⟨2, ![128, 256]⟩ : Shape).Idx → EReal
abbrev Bias : Type := (⟨1, ![128]⟩ : Shape).Idx → EReal

/-- One dense layer on the concatenated activation [x | h], at row r and unit c. -/
def lin {R : Nat} (x h : Act R) (w : Wgt) (b : Bias) (r : Fin R) (c : Fin 128) : EReal :=
  ((∑ k : Fin 128, x (ix2 r k) * w (ix2 c (⟨k.val, by omega⟩ : Fin 256)))
    + ∑ k : Fin 128, h (ix2 r k) * w (ix2 c (⟨128 + k.val, by omega⟩ : Fin 256))) + b (ix1 c)

/-- The new state at row r and unit c: the first squashed layer moved toward the second by the gate. -/
def cell {R : Nat} (x h : Act R) (s : Col R) (w1 : Wgt) (b1 : Bias) (w2 : Wgt) (b2 : Bias) (wa : Wgt) (ba : Bias)
    (wb : Wgt) (bb : Bias) (r : Fin R) (c : Fin 128) : EReal :=
  Ideal.tanh (lin x h w1 b1 r c)
    + Ideal.logistic (lin x h wa ba r c * s (ix2 r (0 : Fin 1)) + lin x h wb bb r c)
      * (Ideal.tanh (lin x h w2 b2 r c) - Ideal.tanh (lin x h w1 b1 r c))

/-- The whole result array: the cell at every (row, unit). -/
def G {R : Nat} (x h : Act R) (s : Col R) (w1 : Wgt) (b1 : Bias) (w2 : Wgt) (b2 : Bias) (wa : Wgt) (ba : Bias)
    (wb : Wgt) (bb : Bias) : Act R :=
  fun i => cell x h s w1 b1 w2 b2 wa ba wb bb ⟨(i 0).val, idx2_lt0 i⟩ ⟨(i 1).val, idx2_lt1 i⟩

theorem G_ix2 {R : Nat} (x h : Act R) (s : Col R) (w1 : Wgt) (b1 : Bias) (w2 : Wgt) (b2 : Bias) (wa : Wgt) (ba : Bias)
    (wb : Wgt) (bb : Bias) (r : Fin R) (c : Fin 128) :
    G x h s w1 b1 w2 b2 wa ba wb bb (ix2 r c) = cell x h s w1 b1 w2 b2 wa ba wb bb r c := rfl

/-- A layer reads its activations only through row r: two pairs of activations that agree there, with equal weights and
    biases, give the same value, whatever their numbers of rows. -/
theorem lin_congr {R R' : Nat} (x h : Act R) (x' h' : Act R') (w w' : Wgt) (b b' : Bias) (r : Fin R) (r' : Fin R')
    (c : Fin 128) (hx : ∀ k : Fin 128, x (ix2 r k) = x' (ix2 r' k)) (hh : ∀ k : Fin 128, h (ix2 r k) = h' (ix2 r' k))
    (hw : ∀ i, w i = w' i) (hb : ∀ i, b i = b' i) :
    lin x h w b r c = lin x' h' w' b' r' c := by
  obtain rfl : w = w' := funext hw
  obtain rfl : b = b' := funext hb
  unfold lin
  exact congrArg₂ (· + ·) (congrArg₂ (· + ·)
    (Finset.sum_congr rfl fun k _ => congrArg (· * w (ix2 c (⟨k.val, by omega⟩ : Fin 256))) (hx k))
    (Finset.sum_congr rfl fun k _ => congrArg (· * w (ix2 c (⟨128 + k.val, by omega⟩ : Fin 256))) (hh k))) rfl

/-- So does the cell. -/
theorem cell_congr {R R' : Nat} (x h : Act R) (s : Col R) (x' h' : Act R') (s' : Col R')
    (w1 w1' : Wgt) (b1 b1' : Bias) (w2 w2' : Wgt) (b2 b2' : Bias) (wa wa' : Wgt) (ba ba' : Bias) (wb wb' : Wgt) (bb bb' : Bias)
    (r : Fin R) (r' : Fin R') (c : Fin 128)
    (hx : ∀ k : Fin 128, x (ix2 r k) = x' (ix2 r' k)) (hh : ∀ k : Fin 128, h (ix2 r k) = h' (ix2 r' k))
    (hs : s (ix2 r (0 : Fin 1)) = s' (ix2 r' (0 : Fin 1)))
    (hw1 : ∀ i, w1 i = w1' i) (hb1 : ∀ i, b1 i = b1' i) (hw2 : ∀ i, w2 i = w2' i) (hb2 : ∀ i, b2 i = b2' i)
    (hwa : ∀ i, wa i = wa' i) (hba : ∀ i, ba i = ba' i) (hwb : ∀ i, wb i = wb' i) (hbb : ∀ i, bb i = bb' i) :
    cell x h s w1 b1 w2 b2 wa ba wb bb r c = cell x' h' s' w1' b1' w2' b2' wa' ba' wb' bb' r' c := by
  unfold cell
  rw [lin_congr x h x' h' w1 w1' b1 b1' r r' c hx hh hw1 hb1, lin_congr x h x' h' w2 w2' b2 b2' r r' c hx hh hw2 hb2,
    lin_congr x h x' h' wa wa' ba ba' r r' c hx hh hwa hba, lin_congr x h x' h' wb wb' bb bb' r r' c hx hh hwb hbb, hs]

end Cert.Cfc

end
-- ==== Proof.TileEntry.lean ====
/-
  One tile of the kernel, entry by entry.

  A tile holds 4096 rows of the activations.  For each of the four layers the body multiplies the tile's input rows by
  the first 128 columns of the weight and its state rows by the last 128 columns (two products that contract the second
  axis of both operands, each started from zero), adds the two, and adds the bias spread over the rows; at row r and
  unit c that is the layer's value  sum_k x(r,k) w(c,k) + sum_k h(r,k) w(c,128+k) + b(c).  Narrowing the operands to
  a shorter float format changes no value on the extended reals.  The body then squashes two layers, gates with the
  other two and the row's time scale, and blends: the tile's entry (r, c) is the cell at (r, c) of the tile's rows.
-/
import proofs.«174271_g31954556682769_cont_sun_m_445_14_alg».proof.Proof.Gen.KernelIdeal.Skeleton
import proofs.«174271_g31954556682769_cont_sun_m_445_14_alg».proof.Proof.LibDotNT
import proofs.«174271_g31954556682769_cont_sun_m_445_14_alg».proof.Proof.LibUnitAxes
import proofs.«174271_g31954556682769_cont_sun_m_445_14_alg».proof.Proof.CellSpec
import Idealize.ShloMosaic.Lib.ValueLayout
import Idealize.ShloMosaic.Lib.ValueIdx
import Idealize.ShloMosaic.PureOps.Ideal.Laws

noncomputable section

namespace Cert.Cfc.Tile

open Cert.KernelIdeal Cert.KernelIdeal.Gen Idealize.ShloMosaic Idealize.ShloMosaic.ValueIdx

/-- The tile's matrix product: a [4096, 128] operand against a [128, 128] operand, contracting the second axis of both. -/
abbrev D := dot_S4096x128_S128x128_S4096x128_1_1_0_0_n_n

/-- The left operand's row is the result's row. -/
theorem D_row (j : S4096x128.Idx) (k : D.contr.Idx) : (D.lhsIdx j k 0).val = (j 0).val := by
  unfold DotDims.lhsIdx
  rw [dif_neg (show ¬(0 : Fin S4096x128.rank) ∈ D.lhsBatch by decide),
    dif_pos (show (0 : Fin S4096x128.rank) ∈ D.lhsNonContracting by decide)]
  rfl

/-- The right operand's row is the result's column. -/
theorem D_col (j : S4096x128.Idx) (k : D.contr.Idx) : (D.rhsIdx j k 0).val = (j 1).val := by
  unfold DotDims.rhsIdx
  rw [dif_neg (show ¬(0 : Fin S128x128.rank) ∈ D.rhsBatch by decide),
    dif_pos (show (0 : Fin S128x128.rank) ∈ D.rhsNonContracting by decide)]
  rfl

/-- One layer as the body computes it, from the tile's two narrowed activation blocks, the weight and the bias. -/
def klin (xa xb : FVec Ideal S4096x128 .bf16) (w : FVec Ideal S128x256 .f32) (b : FVec Ideal S128 .f32) :
    FVec Ideal S4096x128 .f32 :=
  addf (addf
      (matmul D none xa (extractStridedSlice S128x128 ![0, 0] (truncf .bf16 w bitsLt_bf16_f32) slices_S128x256_o0_0_S128x128)
        (constant S4096x128 .f32 0x00000000#32))
      (matmul D none xb (extractStridedSlice S128x128 ![0, 128] (truncf .bf16 w bitsLt_bf16_f32) slices_S128x256_o0_128_S128x128)
        (constant S4096x128 .f32 0x00000000#32)))
    (broadcastTo S4096x128 (shapeCast S1x128 b shapeCasts_S128_S1x128) broadcasts_S1x128_S4096x128)

/-- At row r and unit c it is the layer's value on the tile's rows. -/
theorem klin_apply (xa xb : FVec Ideal S4096x128 .bf16) (w : FVec Ideal S128x256 .f32) (b : FVec Ideal S128 .f32)
    (r : Fin 4096) (c : Fin 128) : klin xa xb w b (ix2 r c) = lin xa xb w b r c := by
  unfold klin lin
  refine congrArg₂ (· + ·) (congrArg₂ (· + ·) ?_ ?_) ?_
  · refine (Cert.LibDotNT.matmul_zero_apply D rfl rfl rfl rfl D_row D_col none xa _ r c).trans ?_
    refine Finset.sum_congr rfl fun k _ => congrArg (xa (ix2 r k) * ·) ?_
    exact slice2_axis1_apply 0 (truncf .bf16 w bitsLt_bf16_f32) slices_S128x256_o0_0_S128x128 c k ⟨k.val, by omega⟩
      (Nat.zero_add _).symm
  · refine (Cert.LibDotNT.matmul_zero_apply D rfl rfl rfl rfl D_row D_col none xb _ r c).trans ?_
    refine Finset.sum_congr rfl fun k _ => congrArg (xb (ix2 r k) * ·) ?_
    exact slice2_axis1_apply 128 (truncf .bf16 w bitsLt_bf16_f32) slices_S128x256_o0_128_S128x128 c k ⟨128 + k.val, by omega⟩
      rfl
  · refine (broadcastTo_1b_ab_apply _ broadcasts_S1x128_S4096x128 r c).trans ?_
    exact shapeCast_a_1a_apply b shapeCasts_S128_S1x128 0 c

/-- The body's payloads, folded over the layer. -/
theorem pay4_eq (x0 x1 : FVec Ideal S4096x128 .f32) (w : FVec Ideal S128x256 .f32) (b : FVec Ideal S128 .f32) :
    k0_pay4 (F := Ideal) x0 x1 w b = tanh (klin (k0_pay2 x0) (k0_pay3 x1) w b) := rfl
theorem pay5_eq (x0 x1 : FVec Ideal S4096x128 .f32) (w : FVec Ideal S128x256 .f32) (b : FVec Ideal S128 .f32) :
    k0_pay5 (F := Ideal) x0 x1 w b = tanh (klin (k0_pay2 x0) (k0_pay3 x1) w b) := rfl
theorem pay6_eq (x0 x1 : FVec Ideal S4096x128 .f32) (w : FVec Ideal S128x256 .f32) (b : FVec Ideal S128 .f32) :
    k0_pay6 (F := Ideal) x0 x1 w b = klin (k0_pay2 x0) (k0_pay3 x1) w b := rfl
theorem pay1_eq (v1 v3 : FVec Ideal S4096x128 .bf16) (v15 v27 v38 : FVec Ideal S4096x128 .f32) (v39 : FVec Ideal S128x256 .f32)
    (v46 : FVec Ideal S128 .f32) (v50 : FVec Ideal S4096x1 .f32) :
    k0_pay1 (F := Ideal) v1 v3 v15 v27 v38 v39 v46 v50
      = addf v15 (mulf (logistic (addf (mulf v38 (broadcastTo S4096x128 v50 broadcasts_S4096x1_S4096x128)) (klin v1 v3 v39 v46)))
          (subf v27 v15)) := rfl

/-- THE TILE AT AN ENTRY: what the body stores at (r, c) is the cell at (r, c) of the tile's blocks. -/
theorem tile_apply (x0 x1 : FVec Ideal S4096x128 .f32) (x2 : FVec Ideal S4096x1 .f32) (x3 : FVec Ideal S128x256 .f32)
    (x4 : FVec Ideal S128 .f32) (x5 : FVec Ideal S128x256 .f32) (x6 : FVec Ideal S128 .f32) (x7 : FVec Ideal S128x256 .f32)
    (x8 : FVec Ideal S128 .f32) (x9 : FVec Ideal S128x256 .f32) (x10 : FVec Ideal S128 .f32) (r : Fin 4096) (c : Fin 128) :
    k0_pay1 (F := Ideal) (k0_pay2 x0) (k0_pay3 x1) (k0_pay4 x0 x1 x3 x4) (k0_pay5 x0 x1 x5 x6) (k0_pay6 x0 x1 x7 x8) x9 x10 x2 (ix2 r c)
      = cell x0 x1 x2 x3 x4 x5 x6 x7 x8 x9 x10 r c := by
  rw [pay1_eq, pay4_eq, pay5_eq, pay6_eq]
  show Ideal.tanh (klin (k0_pay2 x0) (k0_pay3 x1) x3 x4 (ix2 r c))
      + Ideal.logistic (klin (k0_pay2 x0) (k0_pay3 x1) x7 x8 (ix2 r c)
            * broadcastTo S4096x128 x2 broadcasts_S4096x1_S4096x128 (ix2 r c)
          + klin (k0_pay2 x0) (k0_pay3 x1) x9 x10 (ix2 r c))
        * (Ideal.tanh (klin (k0_pay2 x0) (k0_pay3 x1) x5 x6 (ix2 r c)) - Ideal.tanh (klin (k0_pay2 x0) (k0_pay3 x1) x3 x4 (ix2 r c))) = _
  rw [klin_apply, klin_apply, klin_apply, klin_apply, Cert.LibUnitAxes.broadcastTo_a1_ab_apply]
  rfl

end Cert.Cfc.Tile

end
-- ==== Proof.ResultArrays.lean ====
/-
  From tiles to the two result arrays.

  The grid has four points; point t stages rows 4096·t .. 4096·t + 4095 of the input, of the previous state and of the
  time scales, the four weights and the four biases whole, and writes back rows 4096·t .. 4096·t + 4095 of each of the
  two results.  A tile's entry is the cell of the tile's rows (the tile, entry by entry), and the cell reads its
  activations only through its own row, so what point t writes back is rows 4096·t .. of ONE array: the cell at every
  (row, unit) of the whole argument arrays.  The four blocks of rows tile the 16384 rows, so after the run each result
  array IS that array; both results hold the same one.
-/
import proofs.«174271_g31954556682769_cont_sun_m_445_14_alg».proof.Proof.Gen.KernelIdeal.Value
import proofs.«174271_g31954556682769_cont_sun_m_445_14_alg».proof.Proof.TileEntry
import proofs.«174271_g31954556682769_cont_sun_m_445_14_alg».proof.Proof.CellSpec
import Idealize.ShloMosaic.Lib.Pipeline.Value
import Idealize.ShloMosaic.Lib.ValueIdx

noncomputable section

namespace Cert.Cfc.Arrays

open Cert.KernelIdeal Cert.KernelIdeal.Gen Idealize.ShloMosaic Idealize.ShloMosaic.TcCoe Idealize.SL.Sem
open Idealize.ShloMosaic.ValueIdx Cert.Cfc
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The result as ONE function of the argument arrays as the region finds them: the cell at every (row, unit). -/
abbrev Gm (c : Dev nD) : S16384x128.Idx → EReal :=
  G (R := 16384) (V m c main_arg0) (V m c main_arg1) (V m c main_arg2) (V m c main_arg3) (V m c main_arg4) (V m c main_arg5)
    (V m c main_arg6) (V m c main_arg7) (V m c main_arg8) (V m c main_arg9) (V m c main_arg10)

/-- The printed index maps, decided over the four points: the three activation windows and both result windows sit at
    block row t and block column 0; the weights and biases are staged whole. -/
theorem idx_facts : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0
    ∧ win0_9.index t (0 : Fin 2) = 0 ∧ win0_9.index t (1 : Fin 2) = 0 ∧ win0_10.index t (0 : Fin 1) = 0
    ∧ win0_12.index t (0 : Fin 2) = win0_11.index t (0 : Fin 2) ∧ win0_12.index t (1 : Fin 2) = 0
    ∧ win0_11.index t (1 : Fin 2) = 0 ∧ win0_11.index t (0 : Fin 2) ≤ 3 :=
  (by decide +kernel : ∀ t : Fin grid0.N, _)

/-- Every block of rows is some point's. -/
theorem idx_onto : ∀ q : Fin 4, ∃ t : Fin cfg0.N, win0_11.index t = ![q.val, 0] :=
  (by decide +kernel : ∀ q : Fin 4, ∃ t : Fin grid0.N, win0_11.index t = ![q.val, 0])

/-- The array row that row p of point t's blocks is: 4096·t + p. -/
def row (t : Fin cfg0.N) (p : Fin 4096) : Fin 16384 :=
  ⟨win0_11.index t (0 : Fin 2) * 4096 + p.val, by
    have h := (idx_facts t).2.2.2.2.2.2.2.2.2.2.2.2.2.2.2.2.2.2.2.2.2
    have := p.isLt
    omega⟩

theorem row_val (t : Fin cfg0.N) (p : Fin 4096) : (row t p).val = win0_11.index t (0 : Fin 2) * 4096 + p.val := rfl

/-- A TILE'S ENTRY IS THE WHOLE ARRAYS' CELL: at point t the cell of the staged blocks at (p, q) is the cell of the
    argument arrays at (4096·t + p, q) — the activation blocks are rows 4096·t .. of their arrays, the weights and biases
    are staged whole, and the cell reads the activations through its own row only. -/
theorem tile_rows (c : Dev nD) (t : Fin cfg0.N) (p : Fin 4096) (q : Fin 128) :
    k0_pay1 (F := Ideal) (k0_pay2 (iblk m c 0 t)) (k0_pay3 (iblk m c 1 t))
      (k0_pay4 (iblk m c 0 t) (iblk m c 1 t) (iblk m c 3 t) (iblk m c 4 t))
      (k0_pay5 (iblk m c 0 t) (iblk m c 1 t) (iblk m c 5 t) (iblk m c 6 t))
      (k0_pay6 (iblk m c 0 t) (iblk m c 1 t) (iblk m c 7 t) (iblk m c 8 t)) (iblk m c 9 t) (iblk m c 10 t) (iblk m c 2 t) (ix2 p q)
    = Gm m c (ix2 (row t p) q) := by
  obtain ⟨a0, a1, b0, b1, s0, s1, w30, w31, w4, w50, w51, w6, w70, w71, w8, w90, w91, w10, o0, o1, c1, cle⟩ := idx_facts t
  have hrow := row_val t p
  have hx : ∀ k : Fin 128, iblk m c 0 t (ix2 p k) = V m c main_arg0 (ix2 (row t p) k) := fun k => by
    show V m c main_arg0 (((cfg0.win 0).blk t).view.emb (ix2 p k)) = _
    refine congrArg (V m c main_arg0) ?_
    funext a; apply Fin.ext
    match a with
    | ⟨0, _⟩ => show win0_0.index t (0 : Fin 2) * 4096 + 1 * p.val = win0_11.index t (0 : Fin 2) * 4096 + p.val; omega
    | ⟨1, _⟩ => show win0_0.index t (1 : Fin 2) * 128 + 1 * k.val = k.val; omega
  have hh : ∀ k : Fin 128, iblk m c 1 t (ix2 p k) = V m c main_arg1 (ix2 (row t p) k) := fun k => by
    show V m c main_arg1 (((cfg0.win 1).blk t).view.emb (ix2 p k)) = _
    refine congrArg (V m c main_arg1) ?_
    funext a; apply Fin.ext
    match a with
    | ⟨0, _⟩ => show win0_1.index t (0 : Fin 2) * 4096 + 1 * p.val = win0_11.index t (0 : Fin 2) * 4096 + p.val; omega
    | ⟨1, _⟩ => show win0_1.index t (1 : Fin 2) * 128 + 1 * k.val = k.val; omega
  have hs : iblk m c 2 t (ix2 p (0 : Fin 1)) = V m c main_arg2 (ix2 (row t p) (0 : Fin 1)) := by
    show V m c main_arg2 (((cfg0.win 2).blk t).view.emb (ix2 p (0 : Fin 1))) = _
    refine congrArg (V m c main_arg2) ?_
    funext a; apply Fin.ext
    match a with
    | ⟨0, _⟩ => show win0_2.index t (0 : Fin 2) * 4096 + 1 * p.val = win0_11.index t (0 : Fin 2) * 4096 + p.val; omega
    | ⟨1, _⟩ => show win0_2.index t (1 : Fin 2) * 1 + 1 * 0 = 0; omega
  have hw3 : ∀ i : S128x256.Idx, iblk m c 3 t i = V m c main_arg3 i := fun i => by
    show V m c main_arg3 (((cfg0.win 3).blk t).view.emb i) = _
    refine congrArg (V m c main_arg3) ?_
    funext a; apply Fin.ext
    match a with
    | ⟨0, _⟩ => show win0_3.index t (0 : Fin 2) * 128 + 1 * (i 0).val = (i 0).val; omega
    | ⟨1, _⟩ => show win0_3.index t (1 : Fin 2) * 256 + 1 * (i 1).val = (i 1).val; omega
  have hw4 : ∀ i : S128.Idx, iblk m c 4 t i = V m c main_arg4 i := fun i => by
    show V m c main_arg4 (((cfg0.win 4).blk t).view.emb i) = _
    refine congrArg (V m c main_arg4) ?_
    funext a; apply Fin.ext
    match a with
    | ⟨0, _⟩ => show win0_4.index t (0 : Fin 1) * 128 + 1 * (i 0).val = (i 0).val; omega
  have hw5 : ∀ i : S128x256.Idx, iblk m c 5 t i = V m c main_arg5 i := fun i => by
    show V m c main_arg5 (((cfg0.win 5).blk t).view.emb i) = _
    refine congrArg (V m c main_arg5) ?_
    funext a; apply Fin.ext
    match a with
    | ⟨0, _⟩ => show win0_5.index t (0 : Fin 2) * 128 + 1 * (i 0).val = (i 0).val; omega
    | ⟨1, _⟩ => show win0_5.index t (1 : Fin 2) * 256 + 1 * (i 1).val = (i 1).val; omega
  have hw6 : ∀ i : S128.Idx, iblk m c 6 t i = V m c main_arg6 i := fun i => by
    show V m c main_arg6 (((cfg0.win 6).blk t).view.emb i) = _
    refine congrArg (V m c main_arg6) ?_
    funext a; apply Fin.ext
    match a with
    | ⟨0, _⟩ => show win0_6.index t (0 : Fin 1) * 128 + 1 * (i 0).val = (i 0).val; omega
  have hw7 : ∀ i : S128x256.Idx, iblk m c 7 t i = V m c main_arg7 i := fun i => by
    show V m c main_arg7 (((cfg0.win 7).blk t).view.emb i) = _
    refine congrArg (V m c main_arg7) ?_
    funext a; apply Fin.ext
    match a with
    | ⟨0, _⟩ => show win0_7.index t (0 : Fin 2) * 128 + 1 * (i 0).val = (i 0).val; omega
    | ⟨1, _⟩ => show win0_7.index t (1 : Fin 2) * 256 + 1 * (i 1).val = (i 1).val; omega
  have hw8 : ∀ i : S128.Idx, iblk m c 8 t i = V m c main_arg8 i := fun i => by
    show V m c main_arg8 (((cfg0.win 8).blk t).view.emb i) = _
    refine congrArg (V m c main_arg8) ?_
    funext a; apply Fin.ext
    match a with
    | ⟨0, _⟩ => show win0_8.index t (0 : Fin 1) * 128 + 1 * (i 0).val = (i 0).val; omega
  have hw9 : ∀ i : S128x256.Idx, iblk m c 9 t i = V m c main_arg9 i := fun i => by
    show V m c main_arg9 (((cfg0.win 9).blk t).view.emb i) = _
    refine congrArg (V m c main_arg9) ?_
    funext a; apply Fin.ext
    match a with
    | ⟨0, _⟩ => show win0_9.index t (0 : Fin 2) * 128 + 1 * (i 0).val = (i 0).val; omega
    | ⟨1, _⟩ => show win0_9.index t (1 : Fin 2) * 256 + 1 * (i 1).val = (i 1).val; omega
  have hw10 : ∀ i : S128.Idx, iblk m c 10 t i = V m c main_arg10 i := fun i => by
    show V m c main_arg10 (((cfg0.win 10).blk t).view.emb i) = _
    refine congrArg (V m c main_arg10) ?_
    funext a; apply Fin.ext
    match a with
    | ⟨0, _⟩ => show win0_10.index t (0 : Fin 1) * 128 + 1 * (i 0).val = (i 0).val; omega
  refine (Cert.Cfc.Tile.tile_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p q).trans ?_
  exact cell_congr (iblk m c 0 t) (iblk m c 1 t) (iblk m c 2 t) (V m c main_arg0) (V m c main_arg1) (V m c main_arg2)
    (iblk m c 3 t) (V m c main_arg3) (iblk m c 4 t) (V m c main_arg4) (iblk m c 5 t) (V m c main_arg5) (iblk m c 6 t) (V m c main_arg6)
    (iblk m c 7 t) (V m c main_arg7) (iblk m c 8 t) (V m c main_arg8) (iblk m c 9 t) (V m c main_arg9) (iblk m c 10 t) (V m c main_arg10)
    p (row t p) q hx hh hs hw3 hw4 hw5 hw6 hw7 hw8 hw9 hw10

/-- Point t's block of result window 11 sits at rows 4096·t .. and all 128 columns. -/
theorem emb11 (t : Fin cfg0.N) (p : Fin 4096) (q : Fin 128) :
    ((cfg0.win 11).blk t).view.emb (ix2 p q) = ix2 (row t p) q := by
  obtain ⟨a0, a1, b0, b1, s0, s1, w30, w31, w4, w50, w51, w6, w70, w71, w8, w90, w91, w10, o0, o1, c1, cle⟩ := idx_facts t
  funext a; apply Fin.ext
  match a with
  | ⟨0, _⟩ => show win0_11.index t (0 : Fin 2) * 4096 + 1 * p.val = win0_11.index t (0 : Fin 2) * 4096 + p.val; omega
  | ⟨1, _⟩ => show win0_11.index t (1 : Fin 2) * 128 + 1 * q.val = q.val; omega

/-- WHAT POINT t WRITES BACK to result window 11 is rows 4096·t .. of the one array. -/
theorem flushed11_eq (c : Dev nD) (t : Fin cfg0.N) :
    (dats m 0 c).flushed 11 t = ((cfg0.win 11).blk t).view.read (Elt Ideal) (Gm m c) := by
  rw [Cert.KernelIdeal.Value.flushed11]
  unfold out0_11
  rw [View.canon_unit_zero hz2]
  simp only [View.ld_unit_zero (S := S4096x128) hz2, View.ld_unit_zero (S := S128x256) hz2,
    View.ld_unit_zero (S := S128) hz1, View.ld_unit_zero (S := S4096x1) hz2]
  funext j
  show k0_pay1 (F := Ideal) (k0_pay2 (iblk m c 0 t)) (k0_pay3 (iblk m c 1 t))
      (k0_pay4 (iblk m c 0 t) (iblk m c 1 t) (iblk m c 3 t) (iblk m c 4 t))
      (k0_pay5 (iblk m c 0 t) (iblk m c 1 t) (iblk m c 5 t) (iblk m c 6 t))
      (k0_pay6 (iblk m c 0 t) (iblk m c 1 t) (iblk m c 7 t) (iblk m c 8 t)) (iblk m c 9 t) (iblk m c 10 t) (iblk m c 2 t) j
    = Gm m c (((cfg0.win 11).blk t).view.emb j)
  obtain ⟨p, q, rfl⟩ : ∃ (p : Fin 4096) (q : Fin 128), j = ix2 p q := ⟨j 0, j 1, eq_ix2 j⟩
  rw [emb11 t p q]
  exact tile_rows m c t p q

/-- An index of the array is in point t's block iff each coordinate is in the block's range on its axis. -/
theorem mem_blk11 (t : Fin cfg0.N) (i : S16384x128.Idx) :
    i ∈ ((cfg0.win 11).blk t).view.set ↔ ∀ a : Fin 2, win0_11.index t a * S4096x128.size a ≤ (i a).val
      ∧ (i a).val < win0_11.index t a * S4096x128.size a + S4096x128.size a := by
  show i ∈ ((View.whole main_v0_0).slice (win0_11.rect t)).set ↔ _
  rw [View.set_slice_whole, Rect.mem_set_unit]
  exact Iff.rfl

/-- The four blocks of rows tile the array: row i lies in the block of point i / 4096. -/
theorem cover11 (i : S16384x128.Idx) :
    ∃ t : Fin cfg0.N, (cfg0.win 11).flush t = true ∧ i ∈ ((cfg0.win 11).blk t).view.set := by
  have hi0 : (i 0).val < 16384 := (i 0).isLt
  have hi1 : (i 1).val < 128 := (i 1).isLt
  obtain ⟨t, ht⟩ := idx_onto ⟨(i 0).val / 4096, by omega⟩
  have q0 : win0_11.index t (0 : Fin 2) = (i 0).val / 4096 := congrFun ht 0
  obtain ⟨a0, a1, b0, b1, s0, s1, w30, w31, w4, w50, w51, w6, w70, w71, w8, w90, w91, w10, o0, o1, c1, cle⟩ := idx_facts t
  refine ⟨t, flush0_11 t, ?_⟩
  rw [mem_blk11]
  intro a
  match a with
  | ⟨0, _⟩ => show win0_11.index t (0 : Fin 2) * 4096 ≤ (i 0).val ∧ (i 0).val < win0_11.index t (0 : Fin 2) * 4096 + 4096; omega
  | ⟨1, _⟩ => show win0_11.index t (1 : Fin 2) * 128 ≤ (i 1).val ∧ (i 1).val < win0_11.index t (1 : Fin 2) * 128 + 128; omega

/-- THE ARRAY after the run: the cell at every (row, unit) of the argument arrays. -/
theorem final11 (c : Dev nD) : (dats m 0 c).arrAt 11 cfg0.N = Gm m c :=
  (dats m 0 c).arrAt_eq_of_cover 11 (Gm m c) (fun t _ => flushed11_eq m c t) cover11

/-- Point t's block of result window 12 sits at rows 4096·t .. and all 128 columns. -/
theorem emb12 (t : Fin cfg0.N) (p : Fin 4096) (q : Fin 128) :
    ((cfg0.win 12).blk t).view.emb (ix2 p q) = ix2 (row t p) q := by
  obtain ⟨a0, a1, b0, b1, s0, s1, w30, w31, w4, w50, w51, w6, w70, w71, w8, w90, w91, w10, o0, o1, c1, cle⟩ := idx_facts t
  funext a; apply Fin.ext
  match a with
  | ⟨0, _⟩ => show win0_12.index t (0 : Fin 2) * 4096 + 1 * p.val = win0_11.index t (0 : Fin 2) * 4096 + p.val; omega
  | ⟨1, _⟩ => show win0_12.index t (1 : Fin 2) * 128 + 1 * q.val = q.val; omega

/-- WHAT POINT t WRITES BACK to result window 12 is rows 4096·t .. of the one array. -/
theorem flushed12_eq (c : Dev nD) (t : Fin cfg0.N) :
    (dats m 0 c).flushed 12 t = ((cfg0.win 12).blk t).view.read (Elt Ideal) (Gm m c) := by
  rw [Cert.KernelIdeal.Value.flushed12]
  unfold out0_12
  rw [View.canon_unit_zero hz2]
  simp only [View.ld_unit_zero (S := S4096x128) hz2, View.ld_unit_zero (S := S128x256) hz2,
    View.ld_unit_zero (S := S128) hz1, View.ld_unit_zero (S := S4096x1) hz2]
  funext j
  show k0_pay1 (F := Ideal) (k0_pay2 (iblk m c 0 t)) (k0_pay3 (iblk m c 1 t))
      (k0_pay4 (iblk m c 0 t) (iblk m c 1 t) (iblk m c 3 t) (iblk m c 4 t))
      (k0_pay5 (iblk m c 0 t) (iblk m c 1 t) (iblk m c 5 t) (iblk m c 6 t))
      (k0_pay6 (iblk m c 0 t) (iblk m c 1 t) (iblk m c 7 t) (iblk m c 8 t)) (iblk m c 9 t) (iblk m c 10 t) (iblk m c 2 t) j
    = Gm m c (((cfg0.win 12).blk t).view.emb j)
  obtain ⟨p, q, rfl⟩ : ∃ (p : Fin 4096) (q : Fin 128), j = ix2 p q := ⟨j 0, j 1, eq_ix2 j⟩
  rw [emb12 t p q]
  exact tile_rows m c t p q

/-- An index of the array is in point t's block iff each coordinate is in the block's range on its axis. -/
theorem mem_blk12 (t : Fin cfg0.N) (i : S16384x128.Idx) :
    i ∈ ((cfg0.win 12).blk t).view.set ↔ ∀ a : Fin 2, win0_12.index t a * S4096x128.size a ≤ (i a).val
      ∧ (i a).val < win0_12.index t a * S4096x128.size a + S4096x128.size a := by
  show i ∈ ((View.whole main_v0_1).slice (win0_12.rect t)).set ↔ _
  rw [View.set_slice_whole, Rect.mem_set_unit]
  exact Iff.rfl

/-- The four blocks of rows tile the array: row i lies in the block of point i / 4096. -/
theorem cover12 (i : S16384x128.Idx) :
    ∃ t : Fin cfg0.N, (cfg0.win 12).flush t = true ∧ i ∈ ((cfg0.win 12).blk t).view.set := by
  have hi0 : (i 0).val < 16384 := (i 0).isLt
  have hi1 : (i 1).val < 128 := (i 1).isLt
  obtain ⟨t, ht⟩ := idx_onto ⟨(i 0).val / 4096, by omega⟩
  have q0 : win0_11.index t (0 : Fin 2) = (i 0).val / 4096 := congrFun ht 0
  obtain ⟨a0, a1, b0, b1, s0, s1, w30, w31, w4, w50, w51, w6, w70, w71, w8, w90, w91, w10, o0, o1, c1, cle⟩ := idx_facts t
  refine ⟨t, flush0_12 t, ?_⟩
  rw [mem_blk12]
  intro a
  match a with
  | ⟨0, _⟩ => show win0_12.index t (0 : Fin 2) * 4096 ≤ (i 0).val ∧ (i 0).val < win0_12.index t (0 : Fin 2) * 4096 + 4096; omega
  | ⟨1, _⟩ => show win0_12.index t (1 : Fin 2) * 128 ≤ (i 1).val ∧ (i 1).val < win0_12.index t (1 : Fin 2) * 128 + 128; omega

/-- THE ARRAY after the run: the cell at every (row, unit) of the argument arrays. -/
theorem final12 (c : Dev nD) : (dats m 0 c).arrAt 12 cfg0.N = Gm m c :=
  (dats m 0 c).arrAt_eq_of_cover 12 (Gm m c) (fun t _ => flushed12_eq m c t) cover12

/-! ## The run, read -/

/-- The kernel's run re-posted: both result arrays at the cell of the argument arrays, the arguments unchanged. -/
theorem run : θ_run defs (onTc (τ := τ) (main (F := Ideal))) ⟨m, fun _ => 0, ρ⟩ fun r => ∀ c : Dev nD,
      r.2.mem ((c : Thread nD τ).loc main_v0_0) = Gm m c
      ∧ r.2.mem ((c : Thread nD τ).loc main_v0_1) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (Cert.KernelIdeal.Value.run_blocks m ρ)

end Cert.Cfc.Arrays

end
-- ==== Proof.CellLaw.lean ====
/-
  The arithmetic of one gated cell on the extended reals.

  A unit's new state blends two squashed pre-activations a = tanh x and b = tanh y by a gate t = 1 / (1 + e^(-z)):
  one program writes the blend as a + t · (b - a), the other as a · (1 - t) + t · b.  On the extended reals the two
  agree for EVERY x, y, z, the infinities included: tanh sends the whole extended line into [-1, 1] and the gate sends
  it into [0, 1], so a, b and t are real numbers, and between real numbers the identity is the distributive law.
  No input needs to be finite for this.

  Also here: a sum over 256 indices is the sum over the first 128 plus the sum over the last 128 (how an inner product
  against a concatenated vector splits into its two parts), and the word 0x3F800000 is the number one.
-/
import Idealize.ShloMosaic.PureOps.Ideal

noncomputable section

namespace Cert.Cfc

open Idealize.ShloMosaic

/-- A sum over 256 indices is the sum over the first 128 plus the sum over the last 128. -/
theorem sum_halves (f : Fin 256 → EReal) :
    ∑ k : Fin 256, f k = (∑ k : Fin 128, f ⟨k.val, by omega⟩) + ∑ k : Fin 128, f ⟨128 + k.val, by omega⟩ :=
  Fin.sum_univ_add (a := 128) (b := 128) (f : Fin (128 + 128) → EReal)

/-- The hyperbolic tangent of any extended real is a real number: -1 and 1 at the infinities. -/
theorem tanh_real (x : EReal) : ∃ a : ℝ, Ideal.tanh x = (a : EReal) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- The logistic gate of any extended real is a real number: 0 and 1 at the infinities. -/
theorem logistic_real (z : EReal) : ∃ t : ℝ, Ideal.logistic z = (t : EReal) := by
  induction z using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The two spellings of the blend agree on all extended reals: a + t · (b - a) = a · (1 - t) + t · b for
    a = tanh x, b = tanh y, t = logistic z, the three being real numbers. -/
theorem blend_eq (x y z : EReal) :
    Ideal.tanh x + Ideal.logistic z * (Ideal.tanh y - Ideal.tanh x)
      = Ideal.tanh x * (1 - Ideal.logistic z) + Ideal.logistic z * Ideal.tanh y := by
  obtain ⟨a, ha⟩ := tanh_real x
  obtain ⟨b, hb⟩ := tanh_real y
  obtain ⟨t, ht⟩ := logistic_real z
  rw [ha, hb, ht]
  have h : a + t * (b - a) = a * (1 - t) + t * b := by ring
  exact_mod_cast congrArg (fun r : ℝ => (r : EReal)) h

/-- The word 0x3F800000 is the number one. -/
theorem ofBits_one : Ideal.ofBits .f32 0x3F800000#32 = 1 := by
  simp [Ideal.ofBits, Ideal.ieee, -EReal.coe_mul]; norm_num

end Cert.Cfc

end
-- ==== Proof.ReferenceEntry.lean ====
/-
  The reference, entry by entry.

  The reference joins the input and the previous state into one [16384, 256] array, multiplies it by each weight
  transposed, adds the bias spread over the rows, and blends as a · (1 - t) + t · b with the gate written out as
  1 / (1 + e^(-z)).  At row r and unit c the product is a sum over the 256 joined columns; its first 128 terms read the
  input and columns 0..127 of the weight's row c, its last 128 the previous state and columns 128..255: the layer's
  value.  The gate written out is the logistic function, the constant is the number one, and the two spellings of the
  blend agree on all extended reals; so the reference's result is the cell at every (row, unit).
-/
import proofs.«174271_g31954556682769_cont_sun_m_445_14_alg».proof.Proof.Gen.ReferenceIdeal.Read
import proofs.«174271_g31954556682769_cont_sun_m_445_14_alg».proof.Proof.CellSpec
import proofs.«174271_g31954556682769_cont_sun_m_445_14_alg».proof.Proof.CellLaw
import Idealize.ShloMosaic.Lib.Pipeline.Value
import Idealize.ShloMosaic.Lib.ValueIdx

noncomputable section

namespace Cert.Cfc.Ref

open Cert.ReferenceIdeal Cert.ReferenceIdeal.Gen Cert.ReferenceIdeal.Read Idealize.ShloMosaic Idealize.ShloMosaic.ValueIdx Cert.Cfc

/-- ONE LAYER of the reference at row r and unit c: the product with the transposed weight over the joined columns, plus
    the bias, is the layer's value. -/
theorem layer_apply (x0 x1 : (⟨S16384x128, .f32⟩ : BufTy).Contents (Elt Ideal)) (w : (⟨S128x256, .f32⟩ : BufTy).Contents (Elt Ideal)) (b : (⟨S128, .f32⟩ : BufTy).Contents (Elt Ideal)) (r : Fin 16384) (c : Fin 128) :
    val_main_v5 (F := Ideal) x0 x1 w b (ix2 r c) = lin x0 x1 w b r c := by
  show val_main_v2 (F := Ideal) x0 x1 w (ix2 r c) + val_main_v4 (F := Ideal) b (ix2 r c) = _
  rw [val_main_v2_apply, val_main_v4_apply, val_main_v3_apply, sum_halves]
  unfold lin
  refine congrArg₂ (· + ·) (congrArg₂ (· + ·) (Finset.sum_congr rfl fun k _ => ?_) (Finset.sum_congr rfl fun k _ => ?_)) ?_
  · refine congrArg₂ (· * ·) ?_ ?_
    · exact concatenate_pair_apply_left (1 : Fin 2) x0 x1 concatenates_S16384x128_S16384x128_S16384x256_d1
        (lidx_main_v2 (ix2 r c) ⟨k.val, by omega⟩) rfl (ix2 r k) (fun a => by match a with | ⟨0, _⟩ => rfl | ⟨1, _⟩ => rfl)
    · rw [val_main_v1_apply]
      exact congrArg w (funext fun a => Fin.ext (by match a with | ⟨0, _⟩ => rfl | ⟨1, _⟩ => rfl))
  · refine congrArg₂ (· * ·) ?_ ?_
    · exact concatenate_pair_apply_right (1 : Fin 2) x0 x1 concatenates_S16384x128_S16384x128_S16384x256_d1
        (lidx_main_v2 (ix2 r c) ⟨128 + k.val, by omega⟩) rfl rfl (ix2 r k)
        (fun a => by match a with | ⟨0, _⟩ => exact fun _ => rfl | ⟨1, _⟩ => exact fun h => absurd rfl h)
        (by show k.val + 128 = 128 + k.val; omega)
    · rw [val_main_v1_apply]
      exact congrArg w (funext fun a => Fin.ext (by match a with | ⟨0, _⟩ => rfl | ⟨1, _⟩ => rfl))
  · exact congrArg b (funext fun a => Fin.ext (by match a with | ⟨0, _⟩ => rfl))

/-- The other three layers are the same function of their own weight and bias. -/
theorem v11_eq (x0 x1 : (⟨S16384x128, .f32⟩ : BufTy).Contents (Elt Ideal)) (w : (⟨S128x256, .f32⟩ : BufTy).Contents (Elt Ideal)) (b : (⟨S128, .f32⟩ : BufTy).Contents (Elt Ideal)) : val_main_v11 (F := Ideal) x0 x1 w b = val_main_v5 (F := Ideal) x0 x1 w b := rfl
theorem v17_eq (x0 x1 : (⟨S16384x128, .f32⟩ : BufTy).Contents (Elt Ideal)) (w : (⟨S128x256, .f32⟩ : BufTy).Contents (Elt Ideal)) (b : (⟨S128, .f32⟩ : BufTy).Contents (Elt Ideal)) : val_main_v17 (F := Ideal) x0 x1 w b = val_main_v5 (F := Ideal) x0 x1 w b := rfl
theorem v22_eq (x0 x1 : (⟨S16384x128, .f32⟩ : BufTy).Contents (Elt Ideal)) (w : (⟨S128x256, .f32⟩ : BufTy).Contents (Elt Ideal)) (b : (⟨S128, .f32⟩ : BufTy).Contents (Elt Ideal)) : val_main_v22 (F := Ideal) x0 x1 w b = val_main_v5 (F := Ideal) x0 x1 w b := rfl

/-- The three constants spread over the array are the number one. -/
theorem one28 (i : S16384x128.Idx) : val_main_v28 (F := Ideal) i = 1 := by rw [val_main_v28_apply]; exact ofBits_one
theorem one30 (i : S16384x128.Idx) : val_main_v30 (F := Ideal) i = 1 := by rw [val_main_v30_apply]; exact ofBits_one
theorem one32 (i : S16384x128.Idx) : val_main_v32 (F := Ideal) i = 1 := by rw [val_main_v32_apply]; exact ofBits_one

/-- The time scale spread over the units reads the row's scale. -/
theorem scale_apply (x2 : (⟨S16384x1, .f32⟩ : BufTy).Contents (Elt Ideal)) (r : Fin 16384) (c : Fin 128) : val_main_v23 (F := Ideal) x2 (ix2 r c) = x2 (ix2 r (0 : Fin 1)) := by
  rw [val_main_v23_apply]
  exact congrArg x2 (funext fun a => Fin.ext (by match a with | ⟨0, _⟩ => rfl | ⟨1, _⟩ => rfl))

/-- The gate, written out by the reference as 1 / (1 + e^(-z)), over its three scalar constants. -/
theorem gate_unfold (x0 x1 : (⟨S16384x128, .f32⟩ : BufTy).Contents (Elt Ideal)) (x2 : (⟨S16384x1, .f32⟩ : BufTy).Contents (Elt Ideal)) (x7 : (⟨S128x256, .f32⟩ : BufTy).Contents (Elt Ideal)) (x8 : (⟨S128, .f32⟩ : BufTy).Contents (Elt Ideal)) (x9 : (⟨S128x256, .f32⟩ : BufTy).Contents (Elt Ideal)) (x10 : (⟨S128, .f32⟩ : BufTy).Contents (Elt Ideal)) (i : S16384x128.Idx) :
    val_main_v31 (F := Ideal) x0 x1 x2 x7 x8 x9 x10 i
      = Ideal.div (val_main_v30 (F := Ideal) i) (val_main_v28 (F := Ideal) i
          + Ideal.exp (-(val_main_v17 (F := Ideal) x0 x1 x7 x8 i * val_main_v23 (F := Ideal) x2 i + val_main_v22 (F := Ideal) x0 x1 x9 x10 i))) := rfl

/-- The blend as the reference writes it. -/
theorem blend_unfold (x0 x1 : (⟨S16384x128, .f32⟩ : BufTy).Contents (Elt Ideal)) (x2 : (⟨S16384x1, .f32⟩ : BufTy).Contents (Elt Ideal)) (x3 : (⟨S128x256, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x256, .f32⟩ : BufTy).Contents (Elt Ideal)) (x10 : (⟨S128, .f32⟩ : BufTy).Contents (Elt Ideal)) (i : S16384x128.Idx) :
    val_main_v36 (F := Ideal) x0 x1 x2 x3 x4 x5 x6 x7 x8 x9 x10 i
      = Ideal.tanh (val_main_v5 (F := Ideal) x0 x1 x3 x4 i) * (val_main_v32 (F := Ideal) i - val_main_v31 (F := Ideal) x0 x1 x2 x7 x8 x9 x10 i)
        + val_main_v31 (F := Ideal) x0 x1 x2 x7 x8 x9 x10 i * Ideal.tanh (val_main_v11 (F := Ideal) x0 x1 x5 x6 i) := rfl

/-- THE REFERENCE AT AN ENTRY is the cell. -/
theorem ref_apply (x0 x1 : (⟨S16384x128, .f32⟩ : BufTy).Contents (Elt Ideal)) (x2 : (⟨S16384x1, .f32⟩ : BufTy).Contents (Elt Ideal)) (x3 : (⟨S128x256, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x256, .f32⟩ : BufTy).Contents (Elt Ideal)) (x10 : (⟨S128, .f32⟩ : BufTy).Contents (Elt Ideal)) (r : Fin 16384) (c : Fin 128) :
    val_main_v36 (F := Ideal) x0 x1 x2 x3 x4 x5 x6 x7 x8 x9 x10 (ix2 r c) = cell x0 x1 x2 x3 x4 x5 x6 x7 x8 x9 x10 r c := by
  rw [blend_unfold, gate_unfold, one28, one30, one32, scale_apply, v11_eq, v17_eq, v22_eq,
    layer_apply, layer_apply, layer_apply, layer_apply]
  exact (blend_eq (lin x0 x1 x3 x4 r c) (lin x0 x1 x5 x6 r c)
    (lin x0 x1 x7 x8 r c * x2 (ix2 r (0 : Fin 1)) + lin x0 x1 x9 x10 r c)).symm

/-- THE REFERENCE'S RESULT is the cell at every (row, unit). -/
theorem ref_eq (x0 x1 : (⟨S16384x128, .f32⟩ : BufTy).Contents (Elt Ideal)) (x2 : (⟨S16384x1, .f32⟩ : BufTy).Contents (Elt Ideal)) (x3 : (⟨S128x256, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x256, .f32⟩ : BufTy).Contents (Elt Ideal)) (x10 : (⟨S128, .f32⟩ : BufTy).Contents (Elt Ideal)) :
    val_main_v36 (F := Ideal) x0 x1 x2 x3 x4 x5 x6 x7 x8 x9 x10 = G (R := 16384) x0 x1 x2 x3 x4 x5 x6 x7 x8 x9 x10 := by
  funext i
  obtain ⟨r, c, rfl⟩ : ∃ (r : Fin 16384) (c : Fin 128), i = ix2 r c := ⟨i 0, i 1, eq_ix2 i⟩
  exact ref_apply x0 x1 x2 x3 x4 x5 x6 x7 x8 x9 x10 r c

end Cert.Cfc.Ref

end
-- ==== Proof.lean ====
/-
  The gated recurrent cell: a tiled kernel against its plain reference, on the extended reals.

  Both programs take an input x and a previous state h, each [16384, 128], a per-row time scale s : [16384, 1], and four
  dense layers (weight [128, 256] on the concatenated activation [x | h], bias [128]).  With lin_j the j-th layer's value
  at a (row, unit), both compute from  a = tanh lin_1,  b = tanh lin_2  and the gate  t = logistic (lin_a · s + lin_b)
  a blend of a and b — the kernel as  a + t · (b - a),  the reference as  a · (1 - t) + t · b  — and return it twice.

  * The kernel runs over four tiles of 4096 rows.  In a tile each layer is two products, the tile's input rows against
    the first 128 columns of the weight and its state rows against the last 128, both contracting the second axis of both
    operands from a zero start; the reference is ONE product of the joined [x | h] with the weight transposed.  At an
    entry both are sums of the same 256 terms, grouped 128 + 128 on one side: associativity, nothing else.  Narrowing an
    operand to a shorter float format changes no value here.
  * The kernel's gate is one logistic operation, the reference writes 1 / (1 + e^(-z)): the same function by definition,
    the reference's constant being the number one.
  * The two blends agree on ALL extended reals: tanh and the logistic function send even the infinities to real numbers,
    and between real numbers the identity is the distributive law.  So the equality needs no input to be finite, and the
    proof never opens the precondition.
  * A cell entry reads its activations through its own row only, so each tile's block of rows is the matching rows of one
    whole-array function, the four blocks tile the 16384 rows, and each result array ends as that function of the
    argument arrays: the same function the reference's run ends at.

  The three frames are the generated ones (the reference's is its generated run with the results dropped); the kernel's
  idealization rewrote nothing, so it is preserved trivially.
-/
import proofs.«174271_g31954556682769_cont_sun_m_445_14_alg».proof.Defs
import proofs.«174271_g31954556682769_cont_sun_m_445_14_alg».proof.Proof.Gen.Kernel
import proofs.«174271_g31954556682769_cont_sun_m_445_14_alg».proof.Proof.Gen.Kernel.Skeleton
import proofs.«174271_g31954556682769_cont_sun_m_445_14_alg».proof.Proof.Gen.Kernel.Launch
import proofs.«174271_g31954556682769_cont_sun_m_445_14_alg».proof.Proof.Gen.Kernel.Points
import proofs.«174271_g31954556682769_cont_sun_m_445_14_alg».proof.Proof.Gen.Kernel.Frame
import proofs.«174271_g31954556682769_cont_sun_m_445_14_alg».proof.Proof.Gen.KernelIdeal
import proofs.«174271_g31954556682769_cont_sun_m_445_14_alg».proof.Proof.Gen.KernelIdeal.Skeleton
import proofs.«174271_g31954556682769_cont_sun_m_445_14_alg».proof.Proof.Gen.KernelIdeal.Launch
import proofs.«174271_g31954556682769_cont_sun_m_445_14_alg».proof.Proof.Gen.KernelIdeal.Points
import proofs.«174271_g31954556682769_cont_sun_m_445_14_alg».proof.Proof.Gen.KernelIdeal.Frame
import proofs.«174271_g31954556682769_cont_sun_m_445_14_alg».proof.Proof.Gen.ReferenceIdeal
import proofs.«174271_g31954556682769_cont_sun_m_445_14_alg».proof.Proof.Gen.KernelIdeal.Value
import proofs.«174271_g31954556682769_cont_sun_m_445_14_alg».proof.Proof.Gen.ReferenceIdeal.Run
import proofs.«174271_g31954556682769_cont_sun_m_445_14_alg».proof.Proof.Gen.ReferenceIdeal.Read
import proofs.«174271_g31954556682769_cont_sun_m_445_14_alg».proof.Proof.Gen.Pre_finite_inputs
import proofs.«174271_g31954556682769_cont_sun_m_445_14_alg».proof.Proof.ResultArrays
import proofs.«174271_g31954556682769_cont_sun_m_445_14_alg».proof.Proof.ReferenceEntry
import Idealize.ShloMosaic.Adequacy
import Idealize.ShloMosaic.Init

noncomputable section

namespace Cert.Proof

open Idealize.ShloMosaic Idealize.SL.Sem

/-- The two idealized programs, from memories that agree on the eleven arguments, both end with both results at the cell
    of the argument arrays at every (row, unit). -/
theorem algebraic : Cert.algebraic_KernelIdeal_ReferenceIdeal := by
  intro m ρ m' ρ' _ hagree
  refine ⟨fun c => Cert.Cfc.Arrays.Gm m c, fun c => Cert.Cfc.Arrays.Gm m c, Cert.Cfc.Arrays.run m ρ, ?_⟩
  refine (θ_run Cert.ReferenceIdeal.defs _ _).mono (fun r h c => ?_) (Cert.ReferenceIdeal.Value.run (F := Ideal) m' ρ')
  obtain ⟨h0, h1, h2, h3, h4, h5, h6, h7, h8, h9, h10⟩ := hagree c
  have e : r.2.mem ((c.tc : Thread Cert.ReferenceIdeal.nD Cert.ReferenceIdeal.τ).loc Cert.ReferenceIdeal.main_v36)
      = Cert.Cfc.Arrays.Gm m c := by
    rw [(h c).1, Cert.ReferenceIdeal.Read.val_main_v36_eq, Cert.Cfc.Ref.ref_eq, h0, h1, h2, h3, h4, h5, h6, h7, h8, h9, h10]
  exact ⟨e, e, (h c).2.2⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2)
    (Cert.ReferenceIdeal.Value.run (F := Ideal) m ρ),
  trivial,
  algebraic⟩

end Cert.Proof

end
